-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1000 : Shape := ⟨2, ![8, 1000]⟩
abbrev S8x4096x3 : Shape := ⟨3, ![8, 4096, 3]⟩
abbrev S1000 : Shape := ⟨1, ![1000]⟩
abbrev S_ : Shape := ⟨0, ![]⟩

class Facts : Prop where
  bcast_S_S8x1000 : S_.BroadcastsInDim S8x1000 (![] : Fin 0 → Fin S8x1000.rank)
  reducesTo_S8x1000_S_d0_1 : S8x1000.ReducesTo [0, 1] S_
  h_S_ : 0 < S_.numel
  bcast_S_S8x4096x3 : S_.BroadcastsInDim S8x4096x3 (![] : Fin 0 → Fin S8x4096x3.rank)
  reducesTo_S8x4096x3_S_d0_1_2 : S8x4096x3.ReducesTo [0, 1, 2] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg4 : FVec F S1000 .f32) (main_arg5 : FVec F S1000 .f32) (main_arg6 : FVec F S1000 .f32) (main_v13 : IVec S_ 1) (main_v16 : IVec S8x4096x3 1) : IVec S_ 1 :=
  let main_c_5 : IVec S_ 1 := constantI S_ 1 1#1
  let main_v17 : IVec S_ 1 := (fun x v => Host.reduce IntOp.andi x v reducesTo_S8x4096x3_S_d0_1_2 h_S_) main_v16 main_c_5
  let main_v18 : IVec S_ 1 := andi main_v13 main_v17
  let main_v19 : FVec F S1000 .f32 := Host.absf main_arg4
  let main_cst_6 : FVec F S_ .f32 := constant S_ .f32 0x7F800000#32
  let main_v20 : FVec F S1000 .f32 := broadcastInDim S1000 ![] bcast_S_S1000 main_cst_6
  let main_v21 : IVec S1000 1 := cmpf .olt main_v19 main_v20
  let main_c_7 : IVec S_ 1 := constantI S_ 1 1#1
  let main_v22 : IVec S_ 1 := (fun x v => Host.reduce IntOp.andi x v reducesTo_S1000_S_d0 h_S_) main_v21 main_c_7
  let main_v23 : IVec S_ 1 := andi main_v18 main_v22
  let main_v24 : FVec F S1000 .f32 := Host.absf main_arg5
  let main_cst_8 : FVec F S_ .f32 := constant S_ .f32 0x7F800000#32
  let main_v25 : FVec F S1000 .f32 := broadcastInDim S1000 ![] bcast_S_S1000 main_cst_8
  let main_v26 : IVec S1000 1 := cmpf .olt main_v24 main_v25
  let main_c_9 : IVec S_ 1 := constantI S_ 1 1#1
  let main_v27 : IVec S_ 1 := (fun x v => Host.reduce IntOp.andi x v reducesTo_S1000_S_d0 h_S_) main_v26 main_c_9
  let main_v28 : IVec S_ 1 := andi main_v23 main_v27
  let main_v29 : FVec F S1000 .f32 := Host.absf main_arg6
  let main_cst_10 : FVec F S_ .f32 := constant S_ .f32 0x7F800000#32
  let main_v30 : FVec F S1000 .f32 := broadcastInDim S1000 ![] bcast_S_S1000 main_cst_10
  let main_v31 : IVec S1000 1 := cmpf .olt main_v29 main_v30
  let main_c_11 : IVec S_ 1 := constantI S_ 1 1#1
  let main_v32 : IVec S_ 1 := (fun x v => Host.reduce IntOp.andi x v reducesTo_S1000_S_d0 h_S_) main_v31 main_c_11
  let main_v33 : IVec S_ 1 := andi main_v28 main_v32
  main_v33

def fn {F : FTy → Type} [FloatOps F] (main_arg0 : FVec F S8x1000 .f32) (main_arg1 : FVec F S8x1000 .f32) (main_arg2 : FVec F S8x4096x3 .f32) (main_arg3 : FVec F S8x4096x3 .f32) (main_arg4 : FVec F S1000 .f32) (main_arg5 : FVec F S1000 .f32) (main_arg6 : FVec F S1000 .f32) : IVec S_ 1 :=
  let main_v0 : FVec F S8x1000 .f32 := Host.absf main_arg0
  let main_cst : FVec F S_ .f32 := constant S_ .f32 0x7F800000#32
  let main_v1 : FVec F S8x1000 .f32 := broadcastInDim S8x1000 ![] bcast_S_S8x1000 main_cst
  let main_v2 : IVec S8x1000 1 := cmpf .olt main_v0 main_v1
  let main_c : IVec S_ 1 := constantI S_ 1 1#1
  let main_v3 : IVec S_ 1 := (fun x v => Host.reduce IntOp.andi x v reducesTo_S8x1000_S_d0_1 h_S_) main_v2 main_c
  let main_v4 : FVec F S8x1000 .f32 := Host.absf main_arg1
  let main_cst_0 : FVec F S_ .f32 := constant S_ .f32 0x7F800000#32
  let main_v5 : FVec F S8x1000 .f32 := broadcastInDim S8x1000 ![] bcast_S_S8x1000 main_cst_0
  let main_v6 : IVec S8x1000 1 := cmpf .olt main_v4 main_v5
  let main_c_1 : IVec S_ 1 := constantI S_ 1 1#1
  let main_v7 : IVec S_ 1 := (fun x v => Host.reduce IntOp.andi x v reducesTo_S8x1000_S_d0_1 h_S_) main_v6 main_c_1
  let main_v8 : IVec S_ 1 := andi main_v3 main_v7
  let main_v9 : FVec F S8x4096x3 .f32 := Host.absf main_arg2
  let main_cst_2 : FVec F S_ .f32 := constant S_ .f32 0x7F800000#32
  let main_v10 : FVec F S8x4096x3 .f32 := broadcastInDim S8x4096x3 ![] bcast_S_S8x4096x3 main_cst_2
  let main_v11 : IVec S8x4096x3 1 := cmpf .olt main_v9 main_v10
  let main_c_3 : IVec S_ 1 := constantI S_ 1 1#1
  let main_v12 : IVec S_ 1 := (fun x v => Host.reduce IntOp.andi x v reducesTo_S8x4096x3_S_d0_1_2 h_S_) main_v11 main_c_3
  let main_v13 : IVec S_ 1 := andi main_v8 main_v12
  let main_v14 : FVec F S8x4096x3 .f32 := Host.absf main_arg3
  let main_cst_4 : FVec F S_ .f32 := constant S_ .f32 0x7F800000#32
  let main_v15 : FVec F S8x4096x3 .f32 := broadcastInDim S8x4096x3 ![] bcast_S_S8x4096x3 main_cst_4
  let main_v16 : IVec S8x4096x3 1 := cmpf .olt main_v14 main_v15
  fn_part1 (F := F) main_arg4 main_arg5 main_arg6 main_v13 main_v16
-- ==== Kernel.lean ====
abbrev S8x1000 : Shape := ⟨2, ![8, 1000]⟩
abbrev S8x4096x3 : Shape := ⟨3, ![8, 4096, 3]⟩
abbrev S1000 : Shape := ⟨1, ![1000]⟩
abbrev S_ : Shape := ⟨0, ![]⟩
abbrev S32768 : Shape := ⟨1, ![32768]⟩
abbrev S1x512x3 : Shape := ⟨3, ![1, 512, 3]⟩
abbrev S1x4096x3 : Shape := ⟨3, ![1, 4096, 3]⟩
abbrev S512 : Shape := ⟨1, ![512]⟩
abbrev S512x3 : Shape := ⟨2, ![512, 3]⟩
abbrev S4096x3 : Shape := ⟨2, ![4096, 3]⟩
abbrev S4096 : Shape := ⟨1, ![4096]⟩
abbrev S3x4096 : Shape := ⟨2, ![3, 4096]⟩
abbrev S512x4096 : Shape := ⟨2, ![512, 4096]⟩
abbrev S512x1 : Shape := ⟨2, ![512, 1]⟩
abbrev S1x4096 : Shape := ⟨2, ![1, 4096]⟩

abbrev nBuf : Space → Nat
  | .hbm => 52
  | .vmem => 12
  | .smem => 0
  | _ => 0

abbrev bufTy : (tb : Table) → Fin (tcTables nBuf tb) → BufTy
  | .hbm, ⟨0, _⟩ => ⟨S8x1000, .f32⟩
  | .hbm, ⟨1, _⟩ => ⟨S8x1000, .f32⟩
  | .hbm, ⟨2, _⟩ => ⟨S8x4096x3, .f32⟩
  | .hbm, ⟨3, _⟩ => ⟨S8x4096x3, .f32⟩
  | .hbm, ⟨4, _⟩ => ⟨S1000, .f32⟩
  | .hbm, ⟨5, _⟩ => ⟨S1000, .f32⟩
  | .hbm, ⟨6, _⟩ => ⟨S1000, .f32⟩
  | .hbm, ⟨7, _⟩ => ⟨S1000, .f32⟩
  | .hbm, ⟨8, _⟩ => ⟨S1000, .f32⟩
  | .hbm, ⟨9, _⟩ => ⟨S_, .f32⟩
  | .hbm, ⟨10, _⟩ => ⟨S1000, .f32⟩
  | .hbm, ⟨11, _⟩ => ⟨S1000, .f32⟩
  | .hbm, ⟨12, _⟩ => ⟨S1000, .f32⟩
  | .hbm, ⟨13, _⟩ => ⟨S_, .f32⟩
  | .hbm, ⟨14, _⟩ => ⟨S1000, .f32⟩
  | .hbm, ⟨15, _⟩ => ⟨S1000, .f32⟩
  | .hbm, ⟨16, _⟩ => ⟨S_, .f32⟩
  | .hbm, ⟨17, _⟩ => ⟨S1000, .f32⟩
  | .hbm, ⟨18, _⟩ => ⟨S1000, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8x1000, .f32⟩
  | .hbm, ⟨25, _⟩ => ⟨S8x1000, .f32⟩
  | .hbm, ⟨26, _⟩ => ⟨S_, .f32⟩
  | .hbm, ⟨27, _⟩ => ⟨S8x1000, .f32⟩
  | .hbm, ⟨28, _⟩ => ⟨S8x1000, .f32⟩
  | .hbm, ⟨29, _⟩ => ⟨S8x1000, .f32⟩
  | .hbm, ⟨30, _⟩ => ⟨S8x1000, .f32⟩
  | .hbm, ⟨31, _⟩ => ⟨S_, .f32⟩
  | .hbm, ⟨32, _⟩ => ⟨S8x1000, .f32⟩
  | .hbm, ⟨33, _⟩ => ⟨S8x1000, .f32⟩
  | .hbm, ⟨34, _⟩ => ⟨S8x1000, .f32⟩
  | .hbm, ⟨35, _⟩ => ⟨S8x1000, .f32⟩
  | .hbm, ⟨36, _⟩ => ⟨S8x1000, .f32⟩
  | .hbm, ⟨37, _⟩ => ⟨S8x1000, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S32768, .f32⟩
  | .hbm, ⟨44, _⟩ => ⟨S_, .f32⟩
  | .hbm, ⟨45, _⟩ => ⟨S_, .f32⟩
  | .hbm, ⟨46, _⟩ => ⟨S32768, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x4096x3, .f32⟩
  | .local _ .vmem, ⟨3, _⟩ => ⟨S1x4096x3, .f32⟩
  | .local _ .vmem, ⟨4, _⟩ => ⟨S512, .f32⟩
  | .local _ .vmem, ⟨5, _⟩ => ⟨S512, .f32⟩
  | .local _ .vmem, ⟨6, _⟩ => ⟨S1x512x3, .f32⟩
  | .local _ .vmem, ⟨7, _⟩ => ⟨S1x512x3, .f32⟩
  | .local _ .vmem, ⟨8, _⟩ => ⟨S1x4096x3, .f32⟩
  | .local _ .vmem, ⟨9, _⟩ => ⟨S1x4096x3, .f32⟩
  | .local _ .vmem, ⟨10, _⟩ => ⟨S512, .f32⟩
  | .local _ .vmem, ⟨11, _⟩ => ⟨S512, .f32⟩
  | _, _ => ⟨S8x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_call0_cst : Ref sig .tc := ⟨.hbm, 16, rfl⟩
abbrev main_call0_v0 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_cst_2 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_4 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_5 : Ref sig .tc := ⟨.hbm, 38, rfl⟩
abbrev main_v18 : Ref sig .tc := ⟨.hbm, 39, rfl⟩
abbrev main_cst_6 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_7 : Ref sig .tc := ⟨.hbm, 44, rfl⟩
abbrev main_v22 : Ref sig .tc := ⟨.hbm, 45, rfl⟩
abbrev main_v23 : Ref sig .tc := ⟨.hbm, 46, rfl⟩
abbrev main_cst_8 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  ![v1.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  ![v1.toNat]

abbrev stage1_0 : Fin 2 → Memref sig .tc .vmem S1x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bcast_S_S1000 : S_.BroadcastsInDim S1000 (![] : Fin 0 → Fin S1000.rank)
  reducesTo_S1000_S_d0 : S1000.ReducesTo [0] S_
  h_S_ : 0 < S_.numel
  bcast_S_S8x1000 : S_.BroadcastsInDim S8x1000 (![] : Fin 0 → Fin S8x1000.rank)
  reducesTo_S8x1000_S_d0_1 : S8x1000.ReducesTo [0, 1] S_
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  reduces_S512x3_S512 : S512x3.Reduces [1] S512
  reduces_S4096x3_S4096 : S4096x3.Reduces [1] S4096
  transposes_S4096x3_p1_0_S3x4096 : S4096x3.Transposes [1, 0] S3x4096
  shapeCasts_S512_S512x1 : S512.ShapeCasts S512x1
  shapeCasts_S4096_S1x4096 : S4096.ShapeCasts S1x4096
  broadcasts_S512x1_S512x4096 : S512x1.Broadcasts S512x4096
  broadcasts_S1x4096_S512x4096 : S1x4096.Broadcasts S512x4096
  reduces_S512x4096_S512 : S512x4096.Reduces [1] S512
  inb_S512_S512_0 : ∀ a, (![0] : Fin 1 → Nat) a + S512.size a ≤ S512.size a
  h_S512 : 0 < S512.numel
  reducesTo_S32768_S_d0 : S32768.ReducesTo [0] S_
  dot_S512x3_S3x4096_S512x4096_1_0_0_1_n_n_wf : DotDims.WF S512x3 S3x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S8x4096x3.size a
  hwx0_0 : ∀ i : grid0.Coords, EltTy.bits .f32 = 32 ∨ (Rect.block (s := S8x4096x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x3.size a ≤ S8x4096x3.size a
  hwx0_1 : ∀ i : grid0.Coords, EltTy.bits .f32 = 32 ∨ (Rect.block (s := S8x4096x3) S1x4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S32768.size a
  hwx0_2 : ∀ i : grid0.Coords, EltTy.bits .f32 = 32 ∨ (Rect.block (s := S32768) S512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x3.size a ≤ S8x4096x3.size a
  hwx1_0 : ∀ i : grid1.Coords, EltTy.bits .f32 = 32 ∨ (Rect.block (s := S8x4096x3) S1x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x3.size a ≤ S8x4096x3.size a
  hwx1_1 : ∀ i : grid1.Coords, EltTy.bits .f32 = 32 ∨ (Rect.block (s := S8x4096x3) S1x4096x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S32768.size a
  hwx1_2 : ∀ i : grid1.Coords, EltTy.bits .f32 = 32 ∨ (Rect.block (s := S32768) S512.size (cc1_transform_2 i) (hinb1_2 i)).WholeWords (EltTy.packing .f32)

variable [Facts₀]

def dot_S512x3_S3x4096_S512x4096_1_0_0_1_n_n : DotDims S512x3 S3x4096 S512x4096 where
  lhsContracting := [1]
  rhsContracting := [0]
  lhsNonContracting := [0]
  rhsNonContracting := [1]
  lhsBatch := []
  rhsBatch := []
  wf := dot_S512x3_S3x4096_S512x4096_1_0_0_1_n_n_wf

abbrev win0_0 : Pipeline.Window sig grid0 :=
  Pipeline.Window.ofSpec (Memref.whole main_arg2) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg3) S1x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x4096x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x1000 : Shape := ⟨2, ![8, 1000]⟩
abbrev S8x4096x3 : Shape := ⟨3, ![8, 4096, 3]⟩
abbrev S1000 : Shape := ⟨1, ![1000]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 74
  | .vmem => 0
  | .smem => 0
  | _ => 0

abbrev bufTy : (tb : Table) → Fin (tcTables nBuf tb) → BufTy
  | .hbm, ⟨0, _⟩ => ⟨S8x1000, .f32⟩
  | .hbm, ⟨1, _⟩ => ⟨S8x1000, .f32⟩
  | .hbm, ⟨2, _⟩ => ⟨S8x4096x3, .f32⟩
  | .hbm, ⟨3, _⟩ => ⟨S8x4096x3, .f32⟩
  | .hbm, ⟨4, _⟩ => ⟨S1000, .f32⟩
  | .hbm, ⟨5, _⟩ => ⟨S1000, .f32⟩
  | .hbm, ⟨6, _⟩ => ⟨S1000, .f32⟩
  | .hbm, ⟨7, _⟩ => ⟨S1000, .f32⟩
  | .hbm, ⟨8, _⟩ => ⟨S1000, .f32⟩
  | .hbm, ⟨9, _⟩ => ⟨S_, .f32⟩
  | .hbm, ⟨10, _⟩ => ⟨S1000, .f32⟩
  | .hbm, ⟨11, _⟩ => ⟨S1000, .f32⟩
  | .hbm, ⟨12, _⟩ => ⟨S1000, .f32⟩
  | .hbm, ⟨13, _⟩ => ⟨S_, .f32⟩
  | .hbm, ⟨14, _⟩ => ⟨S1000, .f32⟩
  | .hbm, ⟨15, _⟩ => ⟨S1000, .f32⟩
  | .hbm, ⟨16, _⟩ => ⟨S_, .f32⟩
  | .hbm, ⟨17, _⟩ => ⟨S1000, .f32⟩
  | .hbm, ⟨18, _⟩ => ⟨S1000, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8x1000, .f32⟩
  | .hbm, ⟨25, _⟩ => ⟨S8x1000, .f32⟩
  | .hbm, ⟨26, _⟩ => ⟨S_, .f32⟩
  | .hbm, ⟨27, _⟩ => ⟨S8x1000, .f32⟩
  | .hbm, ⟨28, _⟩ => ⟨S8x1000, .f32⟩
  | .hbm, ⟨29, _⟩ => ⟨S8x1000, .f32⟩
  | .hbm, ⟨30, _⟩ => ⟨S8x1000, .f32⟩
  | .hbm, ⟨31, _⟩ => ⟨S_, .f32⟩
  | .hbm, ⟨32, _⟩ => ⟨S8x1000, .f32⟩
  | .hbm, ⟨33, _⟩ => ⟨S8x1000, .f32⟩
  | .hbm, ⟨34, _⟩ => ⟨S8x1000, .f32⟩
  | .hbm, ⟨35, _⟩ => ⟨S8x1000, .f32⟩
  | .hbm, ⟨36, _⟩ => ⟨S8x1000, .f32⟩
  | .hbm, ⟨37, _⟩ => ⟨S8x1000, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8x4096x3, .f32⟩
  | .hbm, ⟨44, _⟩ => ⟨S_, .f32⟩
  | .hbm, ⟨45, _⟩ => ⟨S8x4096, .f32⟩
  | .hbm, ⟨46, _⟩ => ⟨S8x4096x3, .f32⟩
  | .hbm, ⟨47, _⟩ => ⟨S_, .f32⟩
  | .hbm, ⟨48, _⟩ => ⟨S8x4096, .f32⟩
  | .hbm, ⟨49, _⟩ => ⟨S8x4096x4096, .f32⟩
  | .hbm, ⟨50, _⟩ => ⟨S8x4096x1, .f32⟩
  | .hbm, ⟨51, _⟩ => ⟨S8x1x4096, .f32⟩
  | .hbm, ⟨52, _⟩ => ⟨S8x4096x4096, .f32⟩
  | .hbm, ⟨53, _⟩ => ⟨S8x4096x4096, .f32⟩
  | .hbm, ⟨54, _⟩ => ⟨S8x4096x4096, .f32⟩
  | .hbm, ⟨55, _⟩ => ⟨S_, .f32⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S_, .f32⟩
  | .hbm, ⟨60, _⟩ => ⟨S8x4096x4096, .f32⟩
  | .hbm, ⟨61, _⟩ => ⟨S8x4096x4096, .f32⟩
  | .hbm, ⟨62, _⟩ => ⟨S8x4096x4096, .f32⟩
  | .hbm, ⟨63, _⟩ => ⟨S_, .f32⟩
  | .hbm, ⟨64, _⟩ => ⟨S8x4096, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S8x4096, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | _, _ => ⟨S8x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_call0_cst : Ref sig .tc := ⟨.hbm, 16, rfl⟩
abbrev main_call0_v0 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_cst_2 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_4 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_5 : Ref sig .tc := ⟨.hbm, 38, rfl⟩
abbrev main_v18 : Ref sig .tc := ⟨.hbm, 39, rfl⟩
abbrev main_cst_6 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_7 : Ref sig .tc := ⟨.hbm, 44, rfl⟩
abbrev main_v22 : Ref sig .tc := ⟨.hbm, 45, rfl⟩
abbrev main_v23 : Ref sig .tc := ⟨.hbm, 46, rfl⟩
abbrev main_cst_8 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_9 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_10 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_11 : Ref sig .tc := ⟨.hbm, 63, rfl⟩
abbrev main_v37 : Ref sig .tc := ⟨.hbm, 64, rfl⟩
abbrev main_cst_12 : Ref sig .tc := ⟨.hbm, 65, rfl⟩
abbrev main_v38 : Ref sig .tc := ⟨.hbm, 66, rfl⟩
abbrev main_cst_13 : Ref sig .tc := ⟨.hbm, 67, rfl⟩
abbrev main_v39 : Ref sig .tc := ⟨.hbm, 68, rfl⟩
abbrev main_cst_14 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩

abbrev nD : Nat := 1
abbrev τ : Topo := Topo.v7x

variable {F : FTy → Type} [FloatOps F]

class Facts₀ : Prop where
  bcast_S_S1000 : S_.BroadcastsInDim S1000 (![] : Fin 0 → Fin S1000.rank)
  reducesTo_S1000_S_d0 : S1000.ReducesTo [0] S_
  h_S_ : 0 < S_.numel
  bcast_S_S8x1000 : S_.BroadcastsInDim S8x1000 (![] : Fin 0 → Fin S8x1000.rank)
  reducesTo_S8x1000_S_d0_1 : S8x1000.ReducesTo [0, 1] S_
  reducesTo_S8x4096x3_S8x4096_d2 : S8x4096x3.ReducesTo [2] S8x4096
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096_S_d0_1 : S8x4096.ReducesTo [0, 1] S_
  reducesTo_S8x4096x4096_S8x4096_d1 : S8x4096x4096.ReducesTo [1] S8x4096
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Spec.lean ====
/-
  The distance between two points of ℝ³ as the two programs compute it, over the extended reals, and the
  facts about it that join the two sides.

  For points p, q (three coordinates each) both programs form
      sqrt (max ((|p|² + |q|²) − 2·⟨p, q⟩) ε)
  with |p|² = Σₖ pₖ·pₖ, ⟨p, q⟩ = Σₖ pₖ·qₖ, and ε, 2 the same two float words on both sides. The expression is
  symmetric in p and q because + and · commute on the extended reals (no finiteness is needed: nothing is
  distributed or cancelled). The nearest-neighbour distance of p in a cloud is the minimum, from +∞, of the
  distances to the cloud's points; the chamfer term is the sum of those minima over every point and batch.
  A sum over the 32768 positions of a flat array is the sum over (batch, point) pairs read row-major.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- The float word of 2. -/
abbrev two : EReal := Ideal.ofBits .f32 0x40000000#32
/-- The float word of the floor ε under the square root (the float nearest 1e-12). -/
abbrev eps : EReal := Ideal.ofBits .f32 0x2B8CBCCC#32
/-- The float word of +∞, from which a minimum is folded. -/
abbrev inf : EReal := Ideal.ofBits .f32 0x7F800000#32

/-- The distance of two points as both programs compute it: sqrt (max ((|p|² + |q|²) − 2·⟨p, q⟩) ε). -/
def distOf (p q : Fin 3 → EReal) : EReal :=
  Ideal.sqrt (max (((∑ k : Fin 3, p k * p k) + (∑ k : Fin 3, q k * q k)) - two * (∑ k : Fin 3, p k * q k)) eps)

/-- The distance is symmetric: the two squared lengths commute under +, the factors of the inner product under ·. -/
theorem distOf_comm (p q : Fin 3 → EReal) : distOf p q = distOf q p := by
  unfold distOf
  rw [add_comm (∑ k : Fin 3, p k * p k), Finset.sum_congr rfl (fun k _ => mul_comm (p k) (q k))]

/-- The least distance from +∞ over a cloud of 4096 points given by their distances. -/
def minOver (d : Fin 4096 → EReal) : EReal := (Finset.univ : Finset (Fin 4096)).fold min inf d

/-- Position (b, i) of an 8 × 4096 array, row-major, as a position of the flat array of 32768. -/
def flat (j : (⟨2, ![8, 4096]⟩ : Shape).Idx) : (⟨1, ![32768]⟩ : Shape).Idx :=
  ix1 ⟨(j 0).val * 4096 + (j 1).val, by have := (j 0).isLt; have := (j 1).isLt; simp only [Matrix.cons_val_zero, Matrix.cons_val_one] at *; omega⟩

theorem flat_val (j : (⟨2, ![8, 4096]⟩ : Shape).Idx) : (flat j 0).val = (j 0).val * 4096 + (j 1).val := rfl

/-- Row-major reading is a bijection between the 8 × 4096 positions and the 32768 flat ones. -/
theorem flat_bijective : Function.Bijective flat := by
  constructor
  · intro j j' h
    have hv := congrArg (fun i : (⟨1, ![32768]⟩ : Shape).Idx => (i 0).val) h
    simp only [flat_val] at hv
    have h0 := idx2_lt0 j; have h1 := idx2_lt1 j; have h0' := idx2_lt0 j'; have h1' := idx2_lt1 j'
    rw [eq_ix2 j, eq_ix2 j']
    have e0 : (j 0).val = (j' 0).val := by omega
    have e1 : (j 1).val = (j' 1).val := by omega
    rw [Fin.ext e0, Fin.ext e1]
  · intro i
    have hi : (i 0).val < 32768 := (i 0).isLt
    refine ⟨ix2 ⟨(i 0).val / 4096, by omega⟩ ⟨(i 0).val % 4096, Nat.mod_lt _ (by decide)⟩, ?_⟩
    refine Eq.trans (congrArg ix1 (Fin.ext ?_)) (eq_ix1 i).symm
    show (i 0).val / 4096 * 4096 + (i 0).val % 4096 = (i 0).val
    omega

/-- A sum over the flat array is the sum over the (batch, point) pairs of the entries read row-major. -/
theorem sum_flat {M : Type*} [AddCommMonoid M] (f : (⟨1, ![32768]⟩ : Shape).Idx → M) :
    ∑ i : (⟨1, ![32768]⟩ : Shape).Idx, f i = ∑ j : (⟨2, ![8, 4096]⟩ : Shape).Idx, f (flat j) :=
  (Fintype.sum_bijective flat flat_bijective (fun j => f (flat j)) f (fun _ => rfl)).symm

/-- The distance from point `i` of batch `b` of cloud `A` to its nearest point in batch `b` of cloud `B`. -/
def nearest (A B : (⟨3, ![8, 4096, 3]⟩ : Shape).Idx → EReal) (b : Fin 8) (i : Fin 4096) : EReal :=
  minOver (fun j : Fin 4096 => distOf (fun k : Fin 3 => A (ix3 b i k)) (fun k : Fin 3 => B (ix3 b j k)))

/-- The same, laid out as a flat array of 32768: position `n` holds batch `n / 4096`, point `n % 4096`. -/
def nearestFlat (A B : (⟨3, ![8, 4096, 3]⟩ : Shape).Idx → EReal) : (⟨1, ![32768]⟩ : Shape).Idx → EReal := fun n =>
  nearest A B ⟨(n 0).val / 4096, by have hn : (n 0).val < 32768 := (n 0).isLt; omega⟩ ⟨(n 0).val % 4096, Nat.mod_lt _ (by decide)⟩

/-- Read row-major, the flat array is the (batch, point) table. -/
theorem nearestFlat_flat (A B : (⟨3, ![8, 4096, 3]⟩ : Shape).Idx → EReal) (j : (⟨2, ![8, 4096]⟩ : Shape).Idx) :
    nearestFlat A B (flat j) = nearest A B (j 0) (j 1) := by
  have h0 := idx2_lt0 j; have h1 := idx2_lt1 j
  unfold nearestFlat
  congr 1
  · exact Fin.ext (by show ((j 0).val * 4096 + (j 1).val) / 4096 = (j 0).val; omega)
  · exact Fin.ext (by show ((j 0).val * 4096 + (j 1).val) % 4096 = (j 1).val; omega)

/-- So the total of the flat array is the total of the table. -/
theorem sum_nearestFlat (A B : (⟨3, ![8, 4096, 3]⟩ : Shape).Idx → EReal) :
    ∑ n : (⟨1, ![32768]⟩ : Shape).Idx, nearestFlat A B n = ∑ j : (⟨2, ![8, 4096]⟩ : Shape).Idx, nearest A B (j 0) (j 1) :=
  (sum_flat (nearestFlat A B)).trans (Finset.sum_congr rfl fun j _ => nearestFlat_flat A B j)

/-- The minimum over the OTHER cloud's points, taken with the pair in the reference's order, is the nearest
    distance with the clouds exchanged: the distance is symmetric. -/
theorem minOver_swap (A B : (⟨3, ![8, 4096, 3]⟩ : Shape).Idx → EReal) (b : Fin 8) (j : Fin 4096) :
    minOver (fun i : Fin 4096 => distOf (fun k : Fin 3 => A (ix3 b i k)) (fun k : Fin 3 => B (ix3 b j k))) = nearest B A b j := by
  unfold nearest
  exact congrArg minOver (funext fun i => distOf_comm _ _)

end Cert.Chamfer

end
-- ==== Proof.HostSide.lean ====
/-
  The host program around the two launches, read back through the contents of the buffers at each boundary.

  Before the first launch the host computes the box-constraint term and the cross-entropy term from the small
  inputs; neither launch nor any later host operation writes those two results, nor any argument array. After
  each launch the host sums that launch's flat output from the zero constant. The returned value is
      (cross-entropy + (sum of the first output + sum of the second output)) + box term,
  the same shape of expression as the reference's, whose stages for the two small terms are the very same host
  operations on the same inputs.
-/
import proofs.«128140_j64235530879334_2_alg».proof.Proof.Gen.KernelIdeal.Frame
import proofs.«128140_j64235530879334_2_alg».proof.Proof.Gen.ReferenceIdeal.Read

noncomputable section

namespace Cert.Chamfer.HostSide

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-! ## The point clouds are as launched when each launch begins -/

/-- No host operation before the first launch writes the first point cloud. -/
theorem entry0_arg2 (c : Dev nD) : W5 m ρ c (Proc.devRef .tc main_arg2) = m ((c : Thread nD τ).loc main_arg2) := by
  show StableHlo.after hostOps0_4 (W4 m ρ c) (Proc.devRef .tc main_arg2) = _
  after_results

/-- Nor the second. -/
theorem entry0_arg3 (c : Dev nD) : W5 m ρ c (Proc.devRef .tc main_arg3) = m ((c : Thread nD τ).loc main_arg3) := by
  show StableHlo.after hostOps0_4 (W4 m ρ c) (Proc.devRef .tc main_arg3) = _
  after_results

/-- The first launch only reads the clouds (they are its two input windows' arrays), and the sum between the
    launches writes neither. -/
theorem entry1_arg2 (c : Dev nD) : W7 m ρ c (Proc.devRef .tc main_arg2) = m ((c : Thread nD τ).loc main_arg2) := by
  show StableHlo.after hostOps1 (W6 m ρ c) (Proc.devRef .tc main_arg2) = _
  after_results
  exact ((W6_arr m ρ c 0).trans (((dat0 (V5 m ρ) c).arrAt_in 0 rfl _).trans (A_eq0 (V5 m ρ) c 0))).trans (entry0_arg2 m ρ c)

theorem entry1_arg3 (c : Dev nD) : W7 m ρ c (Proc.devRef .tc main_arg3) = m ((c : Thread nD τ).loc main_arg3) := by
  show StableHlo.after hostOps1 (W6 m ρ c) (Proc.devRef .tc main_arg3) = _
  after_results
  exact ((W6_arr m ρ c 1).trans (((dat0 (V5 m ρ) c).arrAt_in 1 rfl _).trans (A_eq0 (V5 m ρ) c 1))).trans (entry0_arg3 m ρ c)

/-! ## The two small terms, computed before the first launch and never written again -/

set_option maxHeartbeats 4000000 in
/-- The cross-entropy term when the first launch begins: the reference's stage for it, of the two probability
    arrays as launched (the same host operations in the same order). -/
theorem entry0_bce (c : Dev nD) :
    W5 m ρ c (Proc.devRef .tc main_v20)
      = Cert.ReferenceIdeal.Read.val_main_v20 (F := F) (m ((c : Thread nD τ).loc main_arg0)) (m ((c : Thread nD τ).loc main_arg1)) := by
  show StableHlo.after hostOps0_4 (W4 m ρ c) (Proc.devRef .tc main_v20) = _
  after_results_simp
  rfl

set_option maxHeartbeats 4000000 in
/-- The box-constraint term likewise: the reference's stage for it, of the three small arrays as launched. -/
theorem entry0_box (c : Dev nD) :
    W5 m ρ c (Proc.devRef .tc main_v8)
      = Cert.ReferenceIdeal.Read.val_main_v8 (F := F) (m ((c : Thread nD τ).loc main_arg4)) (m ((c : Thread nD τ).loc main_arg5)) (m ((c : Thread nD τ).loc main_arg6)) := by
  show StableHlo.after hostOps0_4 (W4 m ρ c) (Proc.devRef .tc main_v8) = _
  after_results_simp
  rfl

/-! ## Across the launches -/

/-- The first launch writes only its output array and the sum after it only its own result: the cross-entropy
    term is unchanged when the second launch begins. -/
theorem entry1_bce (c : Dev nD) :
    W7 m ρ c (Proc.devRef .tc main_v20)
      = Cert.ReferenceIdeal.Read.val_main_v20 (F := F) (m ((c : Thread nD τ).loc main_arg0)) (m ((c : Thread nD τ).loc main_arg1)) := by
  show StableHlo.after hostOps1 (W6 m ρ c) (Proc.devRef .tc main_v20) = _
  after_results
  rw [W6_of_ne m ρ c main_v20 (by decide)]
  exact entry0_bce m ρ c

/-- And so is the box-constraint term. -/
theorem entry1_box (c : Dev nD) :
    W7 m ρ c (Proc.devRef .tc main_v8)
      = Cert.ReferenceIdeal.Read.val_main_v8 (F := F) (m ((c : Thread nD τ).loc main_arg4)) (m ((c : Thread nD τ).loc main_arg5)) (m ((c : Thread nD τ).loc main_arg6)) := by
  show StableHlo.after hostOps1 (W6 m ρ c) (Proc.devRef .tc main_v8) = _
  after_results
  rw [W6_of_ne m ρ c main_v8 (by decide)]
  exact entry0_box m ρ c

/-- Between the launches the host sums the first launch's output array, as that launch left it, from the zero
    constant. -/
theorem entry1_sum (c : Dev nD) :
    W7 m ρ c (Proc.devRef .tc main_v22)
      = Host.reduceAdd (W6 m ρ c (Proc.devRef .tc main_v21)) (constant S_ .f32 0x00000000#32) reducesTo_S32768_S_d0 h_S_ := by
  show StableHlo.after hostOps1 (W6 m ρ c) (Proc.devRef .tc main_v22) = _
  after_results

/-! ## The returned value -/

/-- The value @main returns: (cross-entropy + (sum of the first launch's output + sum of the second's)) + box term,
    each output array as its launch left it. -/
theorem result (c : Dev nD) :
    W9 m ρ c (Proc.devRef .tc main_v27)
      = addf (addf (Cert.ReferenceIdeal.Read.val_main_v20 (F := F) (m ((c : Thread nD τ).loc main_arg0)) (m ((c : Thread nD τ).loc main_arg1)))
            (addf (Host.reduceAdd (W6 m ρ c (Proc.devRef .tc main_v21)) (constant S_ .f32 0x00000000#32) reducesTo_S32768_S_d0 h_S_)
                  (Host.reduceAdd (W8 m ρ c (Proc.devRef .tc main_v23)) (constant S_ .f32 0x00000000#32) reducesTo_S32768_S_d0 h_S_)))
          (Cert.ReferenceIdeal.Read.val_main_v8 (F := F) (m ((c : Thread nD τ).loc main_arg4)) (m ((c : Thread nD τ).loc main_arg5)) (m ((c : Thread nD τ).loc main_arg6))) := by
  show StableHlo.after hostOps2 (W8 m ρ c) (Proc.devRef .tc main_v27) = _
  after_results
  rw [W8_of_ne m ρ c main_v20 (by decide), W8_of_ne m ρ c main_v22 (by decide), W8_of_ne m ρ c main_v8 (by decide),
    entry1_bce m ρ c, entry1_box m ρ c, entry1_sum m ρ c]

end Cert.Chamfer.HostSide

end
-- ==== Proof.Payload.lean ====
/-
  The value the kernel body writes at a row.

  For a row r of the first cloud (512 points p, three coordinates each) and the second cloud (4096 points q), the
  body forms the row sums of squares |p_r|² and |q_j|², the inner products ⟨p_r, q_j⟩ as a matrix product of the
  first cloud with the transposed second one, then
      sqrt (max ((|p_r|² + |q_j|²) − 2·⟨p_r, q_j⟩) ε)
  at every (r, j), and takes the minimum from +∞ along each row. Read at row r this is the least distance, from +∞,
  of p_r to the points of the second cloud. No algebraic law is used: every operation is read at an index. A
  sum-reduction from the zero word is the plain sum over the row, the matrix product into a zero accumulator the
  plain sum of the products over the three coordinates, a column spread over the columns and a row spread over the
  rows read their one entry, and the min-reduction is the fold of min from the accumulator's value over the row.
-/
import proofs.«128140_j64235530879334_2_alg».proof.Proof.Spec
import proofs.«128140_j64235530879334_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Chamfer.Payload

open Idealize.ShloMosaic Idealize.ShloMosaic.ValueIdx Cert.KernelIdeal Cert.KernelIdeal.Gen

/-! ## Layout: a vector made a column, and a column spread over the columns -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Reductions along the rows of a matrix -/

/-- The index of a matrix over row `r` with column `k` inserted is `(r, k)`. -/
theorem lift_row {m n : ℕ} (h : (⟨2, ![m, n]⟩ : Shape).Reduces [1] ⟨1, ![m]⟩) (r : Fin m) (k : Fin n) :
    h.lift (ix1 r) k = ix2 r k :=
  funext fun c => Fin.ext (by
    match c with
    | ⟨0, _⟩ => rfl
    | ⟨1, _⟩ => rfl)

/-- A sum-reduction along the rows from the zero word, read at row `r`: the sum of the row's entries. -/
theorem rowSum_apply {m n : ℕ} (src : FVec Ideal ⟨2, ![m, n]⟩ .f32) (acc : BitVec 32)
    (h : (⟨2, ![m, n]⟩ : Shape).Reduces [1] ⟨1, ![m]⟩) (hφ : FKind.Formats .f32)
    (hacc : acc = FKind.add.neutral .f32 hφ) (r : Fin m) :
    multiReduction .add [1] ⟨1, ![m]⟩ src acc h hφ hacc (ix1 r) = ∑ k : Fin n, src (ix2 r k) :=
  (Ideal.multiReduction_add_single src acc h hφ hacc (ix1 r)).trans
    (Finset.sum_congr rfl fun k _ => congrArg src (lift_row h r k))

/-- A min-reduction along the rows, read at row `r`: the fold of `min` from the accumulator's value over the row. -/
theorem rowMin_apply {m n : ℕ} (src : FVec Ideal ⟨2, ![m, n]⟩ .f32) (acc : BitVec 32)
    (h : (⟨2, ![m, n]⟩ : Shape).Reduces [1] ⟨1, ![m]⟩) (hφ : FKind.Formats .f32)
    (hacc : acc = FKind.minimumf.neutral .f32 hφ) (r : Fin m) :
    multiReduction .minimumf [1] ⟨1, ![m]⟩ src acc h hφ hacc (ix1 r)
      = (Finset.univ : Finset (Fin n)).fold min (Ideal.ofBits .f32 acc) (fun k => src (ix2 r k)) := by
  refine (multiReduction_minimumf_eq_fold src acc h hφ hacc (ix1 r)).trans ?_
  refine (h.fold_filter_drop_single _ _ src (ix1 r)).trans ?_
  exact Finset.fold_congr fun k _ => congrArg src (lift_row h r k)

/-! ## The matrix product of the two clouds' coordinates -/

/-- The left operand's index of the product at `(r, j)` has row `r` … -/
theorem lhsIdx_0 (i : S512x4096.Idx) (q : dot_S512x3_S3x4096_S512x4096_1_0_0_1_n_n.contr.Idx) :
    (dot_S512x3_S3x4096_S512x4096_1_0_0_1_n_n.lhsIdx i q 0).val = (i 0).val := by
  unfold DotDims.lhsIdx
  rw [dif_neg (show ¬(0 : Fin S512x3.rank) ∈ dot_S512x3_S3x4096_S512x4096_1_0_0_1_n_n.lhsBatch by decide),
    dif_pos (show (0 : Fin S512x3.rank) ∈ dot_S512x3_S3x4096_S512x4096_1_0_0_1_n_n.lhsNonContracting by decide)]
  rfl
/-- … and the contraction's coordinate as its column. -/
theorem lhsIdx_1 (i : S512x4096.Idx) (q : dot_S512x3_S3x4096_S512x4096_1_0_0_1_n_n.contr.Idx) :
    (dot_S512x3_S3x4096_S512x4096_1_0_0_1_n_n.lhsIdx i q 1).val = (q ⟨0, by decide⟩).val :=
  dot_S512x3_S3x4096_S512x4096_1_0_0_1_n_n.lhsIdx_val_of_single rfl i q
/-- The right operand's index has the contraction's coordinate as its row … -/
theorem rhsIdx_0 (i : S512x4096.Idx) (q : dot_S512x3_S3x4096_S512x4096_1_0_0_1_n_n.contr.Idx) :
    (dot_S512x3_S3x4096_S512x4096_1_0_0_1_n_n.rhsIdx i q 0).val = (q ⟨0, by decide⟩).val :=
  dot_S512x3_S3x4096_S512x4096_1_0_0_1_n_n.rhsIdx_val_of_single rfl i q
/-- … and column `j`. -/
theorem rhsIdx_1 (i : S512x4096.Idx) (q : dot_S512x3_S3x4096_S512x4096_1_0_0_1_n_n.contr.Idx) :
    (dot_S512x3_S3x4096_S512x4096_1_0_0_1_n_n.rhsIdx i q 1).val = (i 1).val := by
  unfold DotDims.rhsIdx
  rw [dif_neg (show ¬(1 : Fin S3x4096.rank) ∈ dot_S512x3_S3x4096_S512x4096_1_0_0_1_n_n.rhsBatch by decide),
    dif_pos (show (1 : Fin S3x4096.rank) ∈ dot_S512x3_S3x4096_S512x4096_1_0_0_1_n_n.rhsNonContracting by decide)]
  rfl

/-- The matrix product into a zero accumulator, read at `(r, j)`: the sum over the three coordinates of the
    products of the left operand's row `r` and the right operand's column `j`. -/
theorem matmul_apply_ix2 (A : FVec Ideal S512x3 .f32) (B : FVec Ideal S3x4096 .f32) (r : Fin 512) (j : Fin 4096) :
    matmul dot_S512x3_S3x4096_S512x4096_1_0_0_1_n_n (some .fp32) A B (constant (F := Ideal) S512x4096 .f32 0x00000000#32) (ix2 r j)
      = ∑ k : Fin 3, A (ix2 r k) * B (ix2 k j) := by
  simp only [matmul]
  rw [Ideal.matmul_constant_zero_apply, ← Equiv.sum_comp (contrEquiv1 dot_S512x3_S3x4096_S512x4096_1_0_0_1_n_n 3 rfl rfl).symm]
  refine Finset.sum_congr rfl fun k _ => ?_
  have hk := contrEquiv1_symm_val dot_S512x3_S3x4096_S512x4096_1_0_0_1_n_n 3 rfl rfl k
  have el : dot_S512x3_S3x4096_S512x4096_1_0_0_1_n_n.lhsIdx (ix2 r j) ((contrEquiv1 dot_S512x3_S3x4096_S512x4096_1_0_0_1_n_n 3 rfl rfl).symm k) = ix2 r k :=
    funext fun a => Fin.ext (by
      match a with
      | ⟨0, _⟩ => exact lhsIdx_0 _ _
      | ⟨1, _⟩ => exact (lhsIdx_1 _ _).trans hk)
  have er : dot_S512x3_S3x4096_S512x4096_1_0_0_1_n_n.rhsIdx (ix2 r j) ((contrEquiv1 dot_S512x3_S3x4096_S512x4096_1_0_0_1_n_n 3 rfl rfl).symm k) = ix2 k j :=
    funext fun a => Fin.ext (by
      match a with
      | ⟨0, _⟩ => exact (rhsIdx_0 _ _).trans hk
      | ⟨1, _⟩ => exact rhsIdx_1 _ _)
  rw [el, er]

/-! ## The kernel body's value at a row -/

/-- The first launch's body at row `r`: the least distance, from +∞, of point `r` of the first cloud to the 4096 points
    of the second. -/
theorem pay0_apply (x0 : Vec Ideal S1x512x3 .f32) (x1 : Vec Ideal S1x4096x3 .f32) (r : Fin 512) :
    k0_pay1 (F := Ideal) x0 x1 (ix1 r)
      = Cert.Chamfer.minOver (fun j : Fin 4096 =>
          Cert.Chamfer.distOf (fun k : Fin 3 => x0 (ix3 (0 : Fin 1) r k)) (fun k : Fin 3 => x1 (ix3 (0 : Fin 1) j k))) := by
  unfold k0_pay1
  refine (rowMin_apply _ _ _ _ _ r).trans ?_
  refine Finset.fold_congr fun j _ => ?_
  show Ideal.sqrt (max ((_ + _) - (_ * _)) _) = _
  unfold Cert.Chamfer.distOf
  refine congrArg Ideal.sqrt (congrArg₂ max (congrArg₂ (· - ·) (congrArg₂ (· + ·) ?_ ?_) (congrArg₂ (· * ·) rfl ?_)) rfl)
  · refine (broadcastTo_a1_ab_apply _ _ r j).trans ?_
    refine (shapeCast_a_a1_apply _ _ r 0).trans ?_
    refine (rowSum_apply _ _ _ _ _ r).trans ?_
    refine Finset.sum_congr rfl fun k _ => ?_
    exact congrArg₂ (· * ·) (shapeCast_1ab_ab_apply _ _ r k) (shapeCast_1ab_ab_apply _ _ r k)
  · refine (broadcastTo_1b_ab_apply _ _ r j).trans ?_
    refine (shapeCast_a_1a_apply _ _ 0 j).trans ?_
    refine (rowSum_apply _ _ _ _ _ j).trans ?_
    refine Finset.sum_congr rfl fun k _ => ?_
    exact congrArg₂ (· * ·) (shapeCast_1ab_ab_apply _ _ j k) (shapeCast_1ab_ab_apply _ _ j k)
  · refine (matmul_apply_ix2 _ _ r j).trans ?_
    refine Finset.sum_congr rfl fun k _ => ?_
    refine congrArg₂ (· * ·) (shapeCast_1ab_ab_apply _ _ r k) ?_
    refine (transpose_ix2_apply _ _ k j).trans ?_
    exact shapeCast_1ab_ab_apply _ _ j k

/-- The second launch runs the same body. -/
theorem pay1_apply (x0 : Vec Ideal S1x512x3 .f32) (x1 : Vec Ideal S1x4096x3 .f32) (r : Fin 512) :
    k1_pay1 (F := Ideal) x0 x1 (ix1 r)
      = Cert.Chamfer.minOver (fun j : Fin 4096 =>
          Cert.Chamfer.distOf (fun k : Fin 3 => x0 (ix3 (0 : Fin 1) r k)) (fun k : Fin 3 => x1 (ix3 (0 : Fin 1) j k))) :=
  pay0_apply x0 x1 r

end Cert.Chamfer.Payload

end
-- ==== Proof.Blocks.lean ====
/-
  From blocks to the array: after the first launch the output array holds, at flat position n, the least distance
  from point n % 4096 of batch n / 4096 of the first cloud to the 4096 points of the same batch of the second cloud.

  The launch runs over an 8 × 8 grid; point t = (batch, chunk) = (t / 8, t % 8) reads chunk t % 8 (512 points) of
  batch t / 8 of the first cloud and the whole of batch t / 8 of the second, and writes block t (512 positions from
  t·512) of the output. Output position t·512 + r therefore has batch (t·512 + r) / 4096 = t / 8 and point
  (t·512 + r) % 4096 = (t % 8)·512 + r, which is row r of the first cloud's block: the body's value at row r is the
  table's entry there. Position n is written by point n / 512, so the 64 blocks cover the array.
-/
import proofs.«128140_j64235530879334_2_alg».proof.Proof.Spec
import proofs.«128140_j64235530879334_2_alg».proof.Proof.Payload
import proofs.«128140_j64235530879334_2_alg».proof.Proof.Gen.KernelIdeal.Frame
import Idealize.ShloMosaic.Lib.Pipeline.Value
import Idealize.ShloMosaic.Lib.ValueIdx

set_option maxRecDepth 16384

noncomputable section

namespace Cert.Chamfer.Blocks

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The zero offsets of a whole-buffer access, at rank 1 and rank 3. -/
theorem zero1 : (![0] : Fin 1 → Nat) = fun _ => 0 := funext fun a => by fin_cases a <;> rfl
theorem zero3 : (![0, 0, 0] : Fin 3 → Nat) = fun _ => 0 := funext fun a => by fin_cases a <;> rfl

/-! ## The first launch: the output array is the nearest-neighbour table of the first cloud against the second -/

/-- The block indices at grid point `t` = (batch, chunk) = (t / 8, t % 8): the first cloud's block is chunk `t % 8` of
    batch `t / 8`, the second cloud's block is the whole of batch `t / 8`, the output's block is number `t`. -/
theorem index0 : ∀ t : Fin cfg0.N, win0_0.index t (0 : Fin 3) = t.val / 8 ∧ win0_0.index t (1 : Fin 3) = t.val % 8
    ∧ win0_0.index t (2 : Fin 3) = 0 ∧ win0_1.index t (0 : Fin 3) = t.val / 8 ∧ win0_1.index t (1 : Fin 3) = 0
    ∧ win0_1.index t (2 : Fin 3) = 0 ∧ win0_2.index t (0 : Fin 1) = t.val :=
  (by decide +kernel : ∀ t : Fin grid0.N, _)

/-- What grid point `t` writes back is block `t` of the table: output position `t·512 + r` is batch
    `(t·512 + r) / 4096 = t / 8`, point `(t·512 + r) % 4096 = (t % 8)·512 + r`, and the body's row `r` is the least
    distance of that point of the first cloud's block to the 4096 points of the second cloud's batch. -/
theorem flushed0 (c : Dev nD) (t : Fin cfg0.N) :
    (dat0 V c).flushed 2 t
      = ((cfg0.win 2).blk t).view.read (Elt Ideal) (Cert.Chamfer.nearestFlat (V c main_arg2) (V c main_arg3)) := by
  show (cfg0.win 2).cut (grid0.coords t) ((dat0 V c).after 2 t) = _
  rw [after0_2]
  unfold out0_2
  rw [View.canon_unit_zero zero1]
  simp only [View.ld_unit_zero (S := S1x512x3) zero3, View.ld_unit_zero (S := S1x4096x3) zero3]
  refine funext fun (y : S512.Idx) => ?_
  obtain ⟨r, rfl⟩ : ∃ r : Fin 512, y = ix1 r := ⟨y 0, eq_ix1 y⟩
  show k0_pay1 (F := Ideal) (iblk0 V c 0 t) (iblk0 V c 1 t) (ix1 r)
    = Cert.Chamfer.nearestFlat (V c main_arg2) (V c main_arg3) (((cfg0.win 2).blk t).view.emb (ix1 r))
  refine (Cert.Chamfer.Payload.pay0_apply (iblk0 V c 0 t) (iblk0 V c 1 t) r).trans ?_
  unfold Cert.Chamfer.nearestFlat Cert.Chamfer.nearest
  obtain ⟨e00, e01, e02, e10, e11, e12, e2⟩ := index0 t
  have ht : t.val < 64 := lt_of_lt_of_eq t.isLt N_0
  have hr : r.val < 512 := r.isLt
  refine congrArg Cert.Chamfer.minOver (funext fun j => ?_)
  refine congrArg₂ Cert.Chamfer.distOf (funext fun k => ?_) (funext fun k => ?_)
  · show V c main_arg2 (((cfg0.win 0).blk t).view.emb (ix3 (0 : Fin 1) r k)) = V c main_arg2 (ix3 _ _ k)
    refine congrArg (V c main_arg2) (funext fun a => Fin.ext ?_)
    match a with
    | ⟨0, _⟩ =>
      show win0_0.index t (0 : Fin 3) * 1 + 1 * 0 = (win0_2.index t (0 : Fin 1) * 512 + 1 * r.val) / 4096
      omega
    | ⟨1, _⟩ =>
      show win0_0.index t (1 : Fin 3) * 512 + 1 * r.val = (win0_2.index t (0 : Fin 1) * 512 + 1 * r.val) % 4096
      omega
    | ⟨2, _⟩ =>
      show win0_0.index t (2 : Fin 3) * 3 + 1 * k.val = k.val
      omega
  · show V c main_arg3 (((cfg0.win 1).blk t).view.emb (ix3 (0 : Fin 1) j k)) = V c main_arg3 (ix3 _ j k)
    refine congrArg (V c main_arg3) (funext fun a => Fin.ext ?_)
    match a with
    | ⟨0, _⟩ =>
      show win0_1.index t (0 : Fin 3) * 1 + 1 * 0 = (win0_2.index t (0 : Fin 1) * 512 + 1 * r.val) / 4096
      omega
    | ⟨1, _⟩ =>
      show win0_1.index t (1 : Fin 3) * 4096 + 1 * j.val = j.val
      omega
    | ⟨2, _⟩ =>
      show win0_1.index t (2 : Fin 3) * 3 + 1 * k.val = k.val
      omega

/-- A position of the output array lies in point `t`'s block iff it is one of the 512 positions from `t·512`. -/
theorem mem_block0 (t : Fin cfg0.N) (i : S32768.Idx) :
    i ∈ ((cfg0.win 2).blk t).view.set
      ↔ ∀ a : Fin 1, win0_2.index t a * S512.size a ≤ (i a).val ∧ (i a).val < win0_2.index t a * S512.size a + S512.size a := by
  show i ∈ ((View.whole main_v21).slice (win0_2.rect t)).set ↔ _
  rw [View.set_slice_whole, Rect.mem_set_unit]
  exact Iff.rfl

/-- Every position `n` of the output array is written back, by grid point `n / 512`. -/
theorem cover0 (i : S32768.Idx) :
    ∃ t : Fin cfg0.N, (cfg0.win 2).flush t = true ∧ i ∈ ((cfg0.win 2).blk t).view.set := by
  have hi : (i 0).val < 32768 := (i 0).isLt
  obtain ⟨t, ht⟩ : ∃ t : Fin cfg0.N, t.val = (i 0).val / 512 :=
    ⟨⟨(i 0).val / 512, lt_of_lt_of_eq (show (i 0).val / 512 < 64 by omega) N_0.symm⟩, rfl⟩
  obtain ⟨-, -, -, -, -, -, e2⟩ := index0 t
  refine ⟨t, flush0_2 t, ?_⟩
  rw [mem_block0]
  intro a
  match a with
  | ⟨0, _⟩ =>
    show win0_2.index t (0 : Fin 1) * 512 ≤ (i 0).val ∧ (i 0).val < win0_2.index t (0 : Fin 1) * 512 + 512
    omega

/-- After the launch the output array is the table of nearest distances from the first cloud's points to the second
    cloud, laid out flat. -/
theorem arr0 (c : Dev nD) :
    (dat0 V c).arrAt 2 cfg0.N = Cert.Chamfer.nearestFlat (V c main_arg2) (V c main_arg3) :=
  (dat0 V c).arrAt_eq_of_cover 2 _ (fun t _ => flushed0 V c t) cover0

end Cert.Chamfer.Blocks

end
-- ==== Proof.BlocksB.lean ====
/-
  The second launch's output array, after the launch, is the flat table of nearest distances of the two clouds as
  the launch found them, second cloud first.

  The launch runs over an 8 × 8 grid; point t has batch t / 8 and row block t % 8. At point t the body sees rows
  (t % 8)·512 … (t % 8)·512 + 511 of batch t / 8 of the second cloud and the whole batch t / 8 of the first, and writes
  512 entries, entry r being the least distance from +∞ of row (t % 8)·512 + r to the 4096 points of the first
  cloud's batch; these 512 entries are written back at flat positions t·512 … t·512 + 511. Flat position
  n = t·512 + r has batch n / 4096 = t / 8 and point n % 4096 = (t % 8)·512 + r, so each written block is the
  block of the flat table at its own position; position n lies in the block of point n / 512, so the blocks cover
  the array.
-/
import proofs.«128140_j64235530879334_2_alg».proof.Proof.Spec
import proofs.«128140_j64235530879334_2_alg».proof.Proof.Payload
import proofs.«128140_j64235530879334_2_alg».proof.Proof.Gen.KernelIdeal.Frame
import Idealize.ShloMosaic.Lib.Pipeline.Value
import Idealize.ShloMosaic.Lib.ValueIdx

set_option maxRecDepth 16384

noncomputable section

namespace Cert.Chamfer.BlocksB

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The three zero offsets of a whole-block access, as a constant function. -/
theorem zeroB3 : (![0, 0, 0] : Fin 3 → Nat) = fun _ => 0 := funext fun a => by fin_cases a <;> rfl
/-- The one zero offset of a whole-block access, as a constant function. -/
theorem zeroB1 : (![0] : Fin 1 → Nat) = fun _ => 0 := funext fun a => by fin_cases a <;> rfl

/-- Where the three windows sit at grid point t: the second cloud's block at (t / 8, t % 8, 0), the first cloud's at
    (t / 8, 0, 0), the output's at t. -/
theorem index1 : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 1) = t.val :=
  (by decide +kernel : ∀ t : Fin grid1.N, _)

/-- Entry r of what point t's body leaves is the flat table's entry at position r of point t's output block: that
    position is t·512 + r, whose batch is t / 8 and whose point is (t % 8)·512 + r, the row the body's r-th row is. -/
theorem entry1 (c : Dev nD) (t : Fin cfg1.N) (r : Fin 512) :
    k1_pay1 (F := Ideal) (iblk1 V c 0 t) (iblk1 V c 1 t) (ix1 r)
      = Cert.Chamfer.nearestFlat (V c main_arg3) (V c main_arg2) (((cfg1.win 2).blk t).view.emb (ix1 r)) := by
  refine (Cert.Chamfer.Payload.pay1_apply (iblk1 V c 0 t) (iblk1 V c 1 t) r).trans ?_
  unfold Cert.Chamfer.nearestFlat Cert.Chamfer.nearest
  obtain ⟨e00, e01, e02, e10, e11, e12, e2⟩ := index1 t
  have ht : t.val < 64 := lt_of_lt_of_eq t.isLt N_1
  have hr := r.isLt
  refine congrArg Cert.Chamfer.minOver (funext fun j => ?_)
  have hj := j.isLt
  refine congrArg₂ Cert.Chamfer.distOf (funext fun k => ?_) (funext fun k => ?_)
  · have hk := k.isLt
    show V c main_arg3 (((cfg1.win 0).blk t).view.emb (ix3 (0 : Fin 1) r k)) = V c main_arg3 (ix3 _ _ k)
    refine congrArg (V c main_arg3) (funext fun a => Fin.ext ?_)
    match a with
    | ⟨0, _⟩ => show win1_0.index t (0 : Fin 3) * 1 + 1 * 0 = (win1_2.index t (0 : Fin 1) * 512 + 1 * r.val) / 4096; omega
    | ⟨1, _⟩ => show win1_0.index t (1 : Fin 3) * 512 + 1 * r.val = (win1_2.index t (0 : Fin 1) * 512 + 1 * r.val) % 4096; omega
    | ⟨2, _⟩ => show win1_0.index t (2 : Fin 3) * 3 + 1 * k.val = k.val; omega
  · have hk := k.isLt
    show V c main_arg2 (((cfg1.win 1).blk t).view.emb (ix3 (0 : Fin 1) j k)) = V c main_arg2 (ix3 _ j k)
    refine congrArg (V c main_arg2) (funext fun a => Fin.ext ?_)
    match a with
    | ⟨0, _⟩ => show win1_1.index t (0 : Fin 3) * 1 + 1 * 0 = (win1_2.index t (0 : Fin 1) * 512 + 1 * r.val) / 4096; omega
    | ⟨1, _⟩ => show win1_1.index t (1 : Fin 3) * 4096 + 1 * j.val = j.val; omega
    | ⟨2, _⟩ => show win1_1.index t (2 : Fin 3) * 3 + 1 * k.val = k.val; omega

/-- What point t writes back is block t of the flat table. -/
theorem flushed1 (c : Dev nD) (t : Fin cfg1.N) :
    (dat1 V c).flushed 2 t
      = ((cfg1.win 2).blk t).view.read (Elt Ideal) (Cert.Chamfer.nearestFlat (V c main_arg3) (V c main_arg2)) := by
  show (cfg1.win 2).cut (grid1.coords t) ((dat1 V c).after 2 t) = _
  rw [after1_2]
  unfold out1_2
  rw [View.canon_unit_zero zeroB1]
  simp only [View.ld_unit_zero (S := S1x512x3) zeroB3, View.ld_unit_zero (S := S1x4096x3) zeroB3]
  refine funext fun (y : S512.Idx) => ?_
  obtain ⟨r, rfl⟩ : ∃ r : Fin 512, y = ix1 r := ⟨y 0, eq_ix1 y⟩
  exact entry1 V c t r

/-- A flat position is in point t's output block iff it is one of the 512 positions from t's block start. -/
theorem mem_block1 (t : Fin cfg1.N) (n : S32768.Idx) :
    n ∈ ((cfg1.win 2).blk t).view.set
      ↔ ∀ a : Fin 1, win1_2.index t a * S512.size a ≤ (n a).val ∧ (n a).val < win1_2.index t a * S512.size a + S512.size a := by
  show n ∈ ((View.whole main_v23).slice (win1_2.rect t)).set ↔ _
  rw [View.set_slice_whole, Rect.mem_set_unit]
  exact Iff.rfl

/-- Every flat position n is written: it lies in the block of point n / 512, and every point writes back. -/
theorem cover1 (n : S32768.Idx) :
    ∃ t : Fin cfg1.N, (cfg1.win 2).flush t = true ∧ n ∈ ((cfg1.win 2).blk t).view.set := by
  have hn : (n 0).val < 32768 := (n 0).isLt
  have hN : cfg1.N = 64 := N_1
  have hlt : (n 0).val / 512 < cfg1.N := by rw [hN]; omega
  refine ⟨⟨(n 0).val / 512, hlt⟩, flush1_2 _, ?_⟩
  rw [mem_block1]
  obtain ⟨-, -, -, -, -, -, e2⟩ := index1 ⟨(n 0).val / 512, hlt⟩
  intro a
  match a with
  | ⟨0, _⟩ =>
    show win1_2.index ⟨(n 0).val / 512, hlt⟩ (0 : Fin 1) * 512 ≤ (n 0).val
      ∧ (n 0).val < win1_2.index ⟨(n 0).val / 512, hlt⟩ (0 : Fin 1) * 512 + 512
    rw [e2]
    show (n 0).val / 512 * 512 ≤ (n 0).val ∧ (n 0).val < (n 0).val / 512 * 512 + 512
    omega

/-- The second launch's output array after the launch: the flat table of nearest distances, second cloud first. -/
theorem arr1 (c : Dev nD) :
    (dat1 V c).arrAt 2 cfg1.N = Cert.Chamfer.nearestFlat (V c main_arg3) (V c main_arg2) :=
  (dat1 V c).arrAt_eq_of_cover 2 _ (fun t _ => flushed1 V c t) cover1

end Cert.Chamfer.BlocksB

end
-- ==== Proof.RefValue.lean ====
/-
  The reference program's distance tensor and its two nearest-neighbour minima, read at an index.

  For point clouds x, y of shape [8, 4096, 3] the reference forms, at (b, i, j),
      sqrt (max (((0 + Σₖ x(b,i,k)²) + (0 + Σₖ y(b,j,k)²)) − 2·Σₖ x(b,i,k)·y(b,j,k)) ε),
  the two leading zeros being the initial value of each squared-length sum; dropping them (0 + a = a) leaves the
  distance of the points x(b,i,·) and y(b,j,·). Its minimum over the last axis at (b, i) is then the least distance,
  from +∞, of x(b,i,·) to the points of y's cloud b, and its minimum over the middle axis at (b, j) the least distance
  of y(b,j,·) to the points of x's cloud b: a minimum over one axis is the fold of min, from the initial +∞, over that
  axis's coordinates, each inserted into the kept index.
-/
import proofs.«128140_j64235530879334_2_alg».proof.Proof.Spec
import proofs.«128140_j64235530879334_2_alg».proof.Proof.Gen.ReferenceIdeal.Read
import Idealize.ShloMosaic.PureOps.Reduce
import Idealize.ShloMosaic.PureOps.Ideal
import Idealize.ShloMosaic.PureOps.Ideal.Laws
import Idealize.ShloMosaic.Lib.ValueIdx

noncomputable section

namespace Cert.Chamfer.RefValue

open Idealize.ShloMosaic Idealize.ShloMosaic.ValueIdx Cert.ReferenceIdeal Cert.ReferenceIdeal.Gen Cert.ReferenceIdeal.Read

/-! ## Where each stage reads its operand, at the index (b, i, j) -/

/-- The squared length of x's point, broadcast along j, is read at (b, i) and summed over the coordinates (b, i, k). -/
theorem idx_sq_left (b : Fin 8) (i j : Fin 4096) (k : Fin 3) :
    idx_main_v22 (idx_main_v26 (idx_main_v28 (ix3 b i j))) k = ix3 b i k :=
  funext fun a => Fin.ext (by match a with | ⟨0, _⟩ => rfl | ⟨1, _⟩ => rfl | ⟨2, _⟩ => rfl)

/-- The squared length of y's point, broadcast along i, is read at (b, j) and summed over the coordinates (b, j, k). -/
theorem idx_sq_right (b : Fin 8) (i j : Fin 4096) (k : Fin 3) :
    idx_main_v24 (idx_main_v27 (idx_main_v29 (ix3 b i j))) k = ix3 b j k :=
  funext fun a => Fin.ext (by match a with | ⟨0, _⟩ => rfl | ⟨1, _⟩ => rfl | ⟨2, _⟩ => rfl)

/-- The inner product at (b, i, j) reads x at (b, i, k) … -/
theorem idx_dot_left (b : Fin 8) (i j : Fin 4096) (k : Fin 3) :
    lidx_main_v25 (ix3 b i j) k = ix3 b i k :=
  funext fun a => Fin.ext (by match a with | ⟨0, _⟩ => rfl | ⟨1, _⟩ => rfl | ⟨2, _⟩ => rfl)

/-- … and y at (b, j, k). -/
theorem idx_dot_right (b : Fin 8) (i j : Fin 4096) (k : Fin 3) :
    ridx_main_v25 (ix3 b i j) k = ix3 b j k :=
  funext fun a => Fin.ext (by match a with | ⟨0, _⟩ => rfl | ⟨1, _⟩ => rfl | ⟨2, _⟩ => rfl)

/-! ## The distance tensor at an index -/

/-- The reference's distance tensor at (b, i, j) is the distance of x(b,i,·) and y(b,j,·). -/
theorem v36_apply (x2 x3 : (⟨S8x4096x3, .f32⟩ : BufTy).Contents (Elt Ideal)) (b : Fin 8) (i j : Fin 4096) :
    val_main_v36 (F := Ideal) x2 x3 (ix3 b i j)
      = Cert.Chamfer.distOf (fun k : Fin 3 => x2 (ix3 b i k)) (fun k : Fin 3 => x3 (ix3 b j k)) := by
  rw [val_main_v36_apply, val_main_v35_apply, val_main_v33_apply, val_main_v30_apply, val_main_v28_apply,
    val_main_v26_apply, val_main_v22_apply, val_main_v29_apply, val_main_v27_apply, val_main_v24_apply,
    val_main_v32_apply, val_main_v31_apply, val_main_v25_apply, val_main_v34_apply, val_main_cst_7_apply,
    val_main_cst_8_apply, val_main_cst_9_apply, val_main_cst_10_apply]
  simp only [val_main_v21_apply, val_main_v23_apply, idx_sq_left, idx_sq_right, idx_dot_left, idx_dot_right,
    Ideal.hostUnary_sqrt_def, Ideal.maximumf_def, Ideal.subf_def, Ideal.addf_def, Ideal.mulf_def, Ideal.ofBits_def,
    Ideal.ofBits_zero_f32, zero_add]
  rfl

/-! ## The two minima at an index -/

/-- (b, i) with the coordinate j inserted on the last axis is (b, i, j). -/
theorem lift_last (h : S8x4096x4096.Reduces [2] S8x4096) (b : Fin 8) (i j : Fin 4096) :
    h.lift (ix2 b i) j = ix3 b i j :=
  funext fun a => Fin.ext (by match a with | ⟨0, _⟩ => rfl | ⟨1, _⟩ => rfl | ⟨2, _⟩ => rfl)

/-- (b, j) with the coordinate i inserted on the middle axis is (b, i, j). -/
theorem lift_mid (h : S8x4096x4096.Reduces [1] S8x4096) (b : Fin 8) (j i : Fin 4096) :
    h.lift (ix2 b j) i = ix3 b i j :=
  funext fun a => Fin.ext (by match a with | ⟨0, _⟩ => rfl | ⟨1, _⟩ => rfl | ⟨2, _⟩ => rfl)

/-- A minimum over the last axis of any [8, 4096, 4096] array, from the +∞ word, is at (b, i) the fold of min from +∞
    over j of the array at (b, i, j). -/
theorem reduce_min_last (y : S8x4096x4096.Idx → EReal) (b : Fin 8) (i : Fin 4096) :
    Host.reduce (FloatOps.minimumf (F := Ideal) (φ := .f32)) y (val_main_cst_11 (F := Ideal))
        reducesTo_S8x4096x4096_S8x4096_d2 h_S_ (ix2 b i)
      = Cert.Chamfer.minOver (fun j : Fin 4096 => y (ix3 b i j)) := by
  have h : S8x4096x4096.Reduces [2] S8x4096 := by decide
  refine (Host.reduce_eq_fold_single (FloatOps.minimumf (F := Ideal) (φ := .f32)) y (val_main_cst_11 (F := Ideal))
    reducesTo_S8x4096x4096_S8x4096_d2 h h_S_ (ix2 b i)).trans ?_
  unfold Cert.Chamfer.minOver
  exact Finset.fold_congr (fun j _ => congrArg y (lift_last h b i j))

/-- The same over the middle axis: at (b, j) the fold of min from +∞ over i of the array at (b, i, j). -/
theorem reduce_min_mid (y : S8x4096x4096.Idx → EReal) (b : Fin 8) (j : Fin 4096) :
    Host.reduce (FloatOps.minimumf (F := Ideal) (φ := .f32)) y (val_main_cst_13 (F := Ideal))
        reducesTo_S8x4096x4096_S8x4096_d1 h_S_ (ix2 b j)
      = Cert.Chamfer.minOver (fun i : Fin 4096 => y (ix3 b i j)) := by
  have h : S8x4096x4096.Reduces [1] S8x4096 := by decide
  refine (Host.reduce_eq_fold_single (FloatOps.minimumf (F := Ideal) (φ := .f32)) y (val_main_cst_13 (F := Ideal))
    reducesTo_S8x4096x4096_S8x4096_d1 h h_S_ (ix2 b j)).trans ?_
  unfold Cert.Chamfer.minOver
  exact Finset.fold_congr (fun i _ => congrArg y (lift_mid h b j i))

/-- The reference's minimum over y's cloud at (b, i): the least distance, from +∞, of x(b,i,·) to the points y(b,j,·). -/
theorem v37_apply (x2 x3 : (⟨S8x4096x3, .f32⟩ : BufTy).Contents (Elt Ideal)) (b : Fin 8) (i : Fin 4096) :
    val_main_v37 (F := Ideal) x2 x3 (ix2 b i)
      = Cert.Chamfer.minOver (fun j : Fin 4096 => Cert.Chamfer.distOf (fun k : Fin 3 => x2 (ix3 b i k)) (fun k : Fin 3 => x3 (ix3 b j k))) := by
  unfold val_main_v37
  rw [reduce_min_last]
  exact congrArg Cert.Chamfer.minOver (funext fun j => v36_apply x2 x3 b i j)

/-- The reference's minimum over x's cloud at (b, j): the least distance, from +∞, of y(b,j,·) to the points x(b,i,·). -/
theorem v39_apply (x2 x3 : (⟨S8x4096x3, .f32⟩ : BufTy).Contents (Elt Ideal)) (b : Fin 8) (j : Fin 4096) :
    val_main_v39 (F := Ideal) x2 x3 (ix2 b j)
      = Cert.Chamfer.minOver (fun i : Fin 4096 => Cert.Chamfer.distOf (fun k : Fin 3 => x2 (ix3 b i k)) (fun k : Fin 3 => x3 (ix3 b j k))) := by
  unfold val_main_v39
  rw [reduce_min_mid]
  exact congrArg Cert.Chamfer.minOver (funext fun i => v36_apply x2 x3 b i j)

end Cert.Chamfer.RefValue

end
-- ==== Proof.Sums.lean ====
/-
  The two programs' chamfer totals as one expression: the sum, over every batch b and point i, of the distance from
  point i of one cloud to its nearest point in the other cloud's batch b.

  The reference sums, from the constant 0, its table of minima over the last axis (x's points against y's cloud) and
  its table of minima over the middle axis (y's points against x's cloud; by the symmetry of the distance this is the
  nearest-point table with the clouds exchanged). The other program sums, from the constant 0, a flat array of 32768
  entries holding the same table row-major. A sum from 0 is the sum (0 + a = a); the flat positions and the
  (batch, point) pairs correspond one to one.
-/
import proofs.«128140_j64235530879334_2_alg».proof.Proof.Spec
import proofs.«128140_j64235530879334_2_alg».proof.Proof.RefValue
import proofs.«128140_j64235530879334_2_alg».proof.Proof.Gen.KernelIdeal
import Idealize.ShloMosaic.PureOps.Ideal
import Idealize.ShloMosaic.PureOps.Ideal.Laws
import Idealize.ShloMosaic.Lib.ValueIdx

noncomputable section

namespace Cert.Chamfer.Sums

open Idealize.ShloMosaic Idealize.ShloMosaic.ValueIdx

/-- The reference's total of the minima over the last axis: the sum over (b, i) of the distance from x(b,i,·) to its
    nearest point of y's cloud b. -/
theorem ref_total_last (x2 x3 : (⟨Cert.ReferenceIdeal.S8x4096x3, .f32⟩ : BufTy).Contents (Elt Ideal)) (i : Cert.ReferenceIdeal.S_.Idx) :
    Cert.ReferenceIdeal.Read.val_main_v38 (F := Ideal) x2 x3 i = ∑ j : (⟨2, ![8, 4096]⟩ : Shape).Idx, Cert.Chamfer.nearest x2 x3 (j 0) (j 1) := by
  rw [Cert.ReferenceIdeal.Read.val_main_v38_apply, Cert.ReferenceIdeal.Read.val_main_cst_12_apply, Ideal.ofBits_def,
    Ideal.ofBits_zero_f32, zero_add]
  refine Finset.sum_congr rfl fun j _ => ?_
  exact (congrArg (Cert.ReferenceIdeal.Read.val_main_v37 (F := Ideal) x2 x3) (eq_ix2 j)).trans
    (Cert.Chamfer.RefValue.v37_apply x2 x3 (j 0) (j 1))

/-- The reference's total of the minima over the middle axis: the sum over (b, j) of the distance from y(b,j,·) to its
    nearest point of x's cloud b. -/
theorem ref_total_mid (x2 x3 : (⟨Cert.ReferenceIdeal.S8x4096x3, .f32⟩ : BufTy).Contents (Elt Ideal)) (i : Cert.ReferenceIdeal.S_.Idx) :
    Cert.ReferenceIdeal.Read.val_main_v40 (F := Ideal) x2 x3 i = ∑ j : (⟨2, ![8, 4096]⟩ : Shape).Idx, Cert.Chamfer.nearest x3 x2 (j 0) (j 1) := by
  rw [Cert.ReferenceIdeal.Read.val_main_v40_apply, Cert.ReferenceIdeal.Read.val_main_cst_14_apply, Ideal.ofBits_def,
    Ideal.ofBits_zero_f32, zero_add]
  refine Finset.sum_congr rfl fun j _ => ?_
  exact ((congrArg (Cert.ReferenceIdeal.Read.val_main_v39 (F := Ideal) x2 x3) (eq_ix2 j)).trans
    (Cert.Chamfer.RefValue.v39_apply x2 x3 (j 0) (j 1))).trans (Cert.Chamfer.minOver_swap x2 x3 (j 0) (j 1))

/-- The host sum, from the constant 0, of the flat array of nearest distances: the same sum over (b, i). -/
theorem flat_total (A B : (⟨3, ![8, 4096, 3]⟩ : Shape).Idx → EReal) (h : Cert.KernelIdeal.S32768.ReducesTo [0] Cert.KernelIdeal.S_) (hs : 0 < Cert.KernelIdeal.S_.numel) (i : Cert.KernelIdeal.S_.Idx) :
    Host.reduceAdd (F := Ideal) (Cert.Chamfer.nearestFlat A B) (constant (F := Ideal) Cert.KernelIdeal.S_ .f32 0x00000000#32) h hs i = ∑ j : (⟨2, ![8, 4096]⟩ : Shape).Idx, Cert.Chamfer.nearest A B (j 0) (j 1) := by
  simp only [Host.reduceAdd, Ideal.hostReduceAdd_def]
  refine (Ideal.hostReduceAdd_total h (fun b => b.elim0) _ _ i).trans ?_
  have h0 : (constant (F := Ideal) Cert.KernelIdeal.S_ .f32 0x00000000#32) (Shape.Idx.first hs) = 0 := Ideal.ofBits_zero_f32
  rw [h0, zero_add]
  exact Cert.Chamfer.sum_nearestFlat A B

end Cert.Chamfer.Sums

end
-- ==== Proof.Bridge.lean ====
/-
  The kernel's returned value is the reference's last stage of the same seven input arrays.

  Each launch leaves in its flat output array, at position n, the distance from point n % 4096 of batch n / 4096 of
  its first cloud to the nearest point of the same batch of its second cloud (the blocks of the 64 grid points tile
  the array, and each block is the body's row minima). The first launch takes the clouds in the order
  (prediction, target), the second in the order (target, prediction); neither cloud has been written when either
  launch begins. The host sums each array from zero; read row-major, those sums are the sums over (batch, point) that
  the reference forms from its one distance tensor: its minima over the last axis for the first, and — the distance
  being symmetric — its minima over the middle axis for the second. The cross-entropy and box terms are the
  reference's own stages, and the three additions are in the reference's order.
-/
import proofs.«128140_j64235530879334_2_alg».proof.Proof.Spec
import proofs.«128140_j64235530879334_2_alg».proof.Proof.HostSide
import proofs.«128140_j64235530879334_2_alg».proof.Proof.Blocks
import proofs.«128140_j64235530879334_2_alg».proof.Proof.BlocksB
import proofs.«128140_j64235530879334_2_alg».proof.Proof.Sums

noncomputable section

namespace Cert.Chamfer.Bridge

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

set_option maxHeartbeats 1000000 in
/-- The first launch's output array, as the launch left it: nearest-neighbour distances from the first cloud to the
    second, both as launched. -/
theorem out0 (c : Dev nD) :
    W6 m ρ c (Proc.devRef .tc main_v21) = Cert.Chamfer.nearestFlat (m ((c : Thread nD τ).loc main_arg2)) (m ((c : Thread nD τ).loc main_arg3)) := by
  refine (W6_arr m ρ c 2).trans ((Cert.Chamfer.Blocks.arr0 (V5 m ρ) c).trans ?_)
  show Cert.Chamfer.nearestFlat (W5 m ρ c (Proc.devRef .tc main_arg2)) (W5 m ρ c (Proc.devRef .tc main_arg3)) = _
  rw [Cert.Chamfer.HostSide.entry0_arg2 m ρ c, Cert.Chamfer.HostSide.entry0_arg3 m ρ c]

set_option maxHeartbeats 1000000 in
/-- The second launch's output array: nearest-neighbour distances from the second cloud to the first. -/
theorem out1 (c : Dev nD) :
    W8 m ρ c (Proc.devRef .tc main_v23) = Cert.Chamfer.nearestFlat (m ((c : Thread nD τ).loc main_arg3)) (m ((c : Thread nD τ).loc main_arg2)) := by
  refine (W8_arr m ρ c 2).trans ((Cert.Chamfer.BlocksB.arr1 (V7 m ρ) c).trans ?_)
  show Cert.Chamfer.nearestFlat (W7 m ρ c (Proc.devRef .tc main_arg3)) (W7 m ρ c (Proc.devRef .tc main_arg2)) = _
  rw [Cert.Chamfer.HostSide.entry1_arg3 m ρ c, Cert.Chamfer.HostSide.entry1_arg2 m ρ c]

set_option maxHeartbeats 1000000 in
/-- The value the kernel's program returns is the reference's last stage of the arrays as launched. -/
theorem kernel_result (c : Dev nD) :
    W9 m ρ c (Proc.devRef .tc main_v27)
      = Cert.ReferenceIdeal.Read.val_main_v43 (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) (m ((c : Thread nD τ).loc main_arg6)) := by
  -- the host sum of the first output is the reference's total of its minima over the last axis
  have h1 : Host.reduceAdd (F := Ideal) (Cert.Chamfer.nearestFlat (m ((c : Thread nD τ).loc main_arg2)) (m ((c : Thread nD τ).loc main_arg3)))
        (constant (F := Ideal) S_ .f32 0x00000000#32) reducesTo_S32768_S_d0 h_S_
      = Cert.ReferenceIdeal.Read.val_main_v38 (F := Ideal) (m ((c : Thread nD τ).loc main_arg2)) (m ((c : Thread nD τ).loc main_arg3)) :=
    funext fun i => (Cert.Chamfer.Sums.flat_total _ _ _ _ i).trans (Cert.Chamfer.Sums.ref_total_last _ _ i).symm
  -- and of the second its total of the minima over the middle axis
  have h2 : Host.reduceAdd (F := Ideal) (Cert.Chamfer.nearestFlat (m ((c : Thread nD τ).loc main_arg3)) (m ((c : Thread nD τ).loc main_arg2)))
        (constant (F := Ideal) S_ .f32 0x00000000#32) reducesTo_S32768_S_d0 h_S_
      = Cert.ReferenceIdeal.Read.val_main_v40 (F := Ideal) (m ((c : Thread nD τ).loc main_arg2)) (m ((c : Thread nD τ).loc main_arg3)) :=
    funext fun i => (Cert.Chamfer.Sums.flat_total _ _ _ _ i).trans (Cert.Chamfer.Sums.ref_total_mid _ _ i).symm
  refine (Cert.Chamfer.HostSide.result m ρ c).trans ?_
  rw [out0 m ρ c, out1 m ρ c, h1, h2]
  rfl

end Cert.Chamfer.Bridge

end
-- ==== Proof.lean ====
/-
  A loss that adds three terms — a clipped binary cross-entropy of two probability arrays, the symmetric chamfer
  distance of two batches of point clouds in ℝ³, and a box-constraint penalty — computed two ways, agrees over the
  extended reals.

  The cross-entropy and the penalty are the same host operations on the same inputs in both programs. For the
  chamfer distance both programs take, for points p and q, the number sqrt (max ((|p|² + |q|²) − 2·⟨p, q⟩) ε) with
  the same float words for 2 and ε, minimise it from +∞ over the other cloud's points of the same batch, and sum the
  minima over every point and batch, once in each direction. The reference forms one distance tensor
  d[b, i, j] and takes its minima over j, then over i; the kernel is launched twice, with the clouds exchanged,
  each launch writing the row minima of a 512 × 4096 tile into a flat array that the host then sums. The two agree
  because the distance is symmetric in its two points (+ and · commute on the extended reals; nothing is
  distributed or cancelled, so no finiteness of the inputs is used), a minimum over an axis is the fold of `min`
  from +∞ over that axis's coordinates whichever program takes it, and the flat array read row-major is the
  (batch, point) table, so the two totals are one sum. The final additions are in the same order in both programs.

  The three frames are the generated ones (the reference's is its run with the result dropped); the kernel's
  idealization rewrote no operation, so there is nothing to preserve.
-/
import proofs.«128140_j64235530879334_2_alg».proof.Defs
import proofs.«128140_j64235530879334_2_alg».proof.Proof.Gen.Kernel
import proofs.«128140_j64235530879334_2_alg».proof.Proof.Gen.Kernel.Skeleton
import proofs.«128140_j64235530879334_2_alg».proof.Proof.Gen.Kernel.Launch
import proofs.«128140_j64235530879334_2_alg».proof.Proof.Gen.Kernel.Points
import proofs.«128140_j64235530879334_2_alg».proof.Proof.Gen.Kernel.Frame
import proofs.«128140_j64235530879334_2_alg».proof.Proof.Gen.KernelIdeal
import proofs.«128140_j64235530879334_2_alg».proof.Proof.Gen.KernelIdeal.Skeleton
import proofs.«128140_j64235530879334_2_alg».proof.Proof.Gen.KernelIdeal.Launch
import proofs.«128140_j64235530879334_2_alg».proof.Proof.Gen.KernelIdeal.Points
import proofs.«128140_j64235530879334_2_alg».proof.Proof.Gen.KernelIdeal.Frame
import proofs.«128140_j64235530879334_2_alg».proof.Proof.Gen.ReferenceIdeal
import proofs.«128140_j64235530879334_2_alg».proof.Proof.Gen.ReferenceIdeal.Run
import proofs.«128140_j64235530879334_2_alg».proof.Proof.Gen.ReferenceIdeal.Read
import proofs.«128140_j64235530879334_2_alg».proof.Proof.Gen.Pre_finite_inputs
import proofs.«128140_j64235530879334_2_alg».proof.Proof.RunValue
import proofs.«128140_j64235530879334_2_alg».proof.Proof.Bridge
import Idealize.ShloMosaic.Adequacy
import Idealize.ShloMosaic.Init

noncomputable section

namespace Cert.Proof

open Idealize.ShloMosaic Idealize.ShloMosaic.TcCoe Idealize.SL.Sem

/-- The printed kernel runs and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is host operations only: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

set_option maxHeartbeats 1000000 in
/-- From memories that agree on the seven inputs both programs end with the same value: the reference's last stage
    of those inputs. The kernel's side is its run with the result buffer read back through the host program and the
    two launches; the reference's side is its run, its composed term being that stage, with the agreement of
    the inputs rewritten. -/
theorem algebraic : Cert.algebraic_KernelIdeal_ReferenceIdeal := by
  intro m ρ m' ρ' _ hagree
  refine ⟨fun c => Cert.ReferenceIdeal.Read.val_main_v43 (F := Ideal)
      (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3))
      (m ((c : Thread Cert.KernelIdeal.nD Cert.KernelIdeal.τ).loc Cert.KernelIdeal.main_arg4)) (m ((c : Thread Cert.KernelIdeal.nD Cert.KernelIdeal.τ).loc Cert.KernelIdeal.main_arg5))
      (m ((c : Thread Cert.KernelIdeal.nD Cert.KernelIdeal.τ).loc Cert.KernelIdeal.main_arg6)), ?_, ?_⟩
  · exact (θ_run Cert.KernelIdeal.defs _ _).mono (fun r h c => ⟨(h c).1.trans (Cert.Chamfer.Bridge.kernel_result m ρ c), (h c).2⟩)
      (Cert.KernelIdeal.GenP.run (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v43_eq _ _ _ _ _ _ _).trans ?_
    rw [(hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
